-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S10000x128 : Shape := ⟨2, ![10000, 128]⟩
abbrev S10000x32 : Shape := ⟨2, ![10000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 91
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x32, .f32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S3300000, .i32⟩
  | .hbm, ⟨18, _⟩ => ⟨S3300000, .i1⟩
  | .hbm, ⟨19, _⟩ => ⟨S_, .i32⟩
  | .hbm, ⟨20, _⟩ => ⟨S3300000, .i32⟩
  | .hbm, ⟨21, _⟩ => ⟨S3300000, .i32⟩
  | .hbm, ⟨22, _⟩ => ⟨S3300000, .i32⟩
  | .hbm, ⟨23, _⟩ => ⟨S3300000x1, .i32⟩
  | .hbm, ⟨24, _⟩ => ⟨S_, .f32⟩
  | .hbm, ⟨25, _⟩ => ⟨S3300000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x32, .f32⟩
  | .hbm, ⟨63, _⟩ => ⟨S3300000x1, .f32⟩
  | .hbm, ⟨64, _⟩ => ⟨S3300000x32, .f32⟩
  | .hbm, ⟨65, _⟩ => ⟨S3300000x32, .f32⟩
  | .hbm, ⟨66, _⟩ => ⟨S_, .f32⟩
  | .hbm, ⟨67, _⟩ => ⟨S100000x32, .f32⟩
  | .hbm, ⟨68, _⟩ => ⟨S3300000x1, .i32⟩
  | .hbm, ⟨69, _⟩ => ⟨S100000x32, .f32⟩
  | .hbm, ⟨70, _⟩ => ⟨S1x32, .f32⟩
  | .hbm, ⟨71, _⟩ => ⟨S100000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x1, .f32⟩
  | .hbm, ⟨81, _⟩ => ⟨S3300000x1, .f32⟩
  | .hbm, ⟨82, _⟩ => ⟨S3300000x1, .f32⟩
  | .hbm, ⟨83, _⟩ => ⟨S_, .f32⟩
  | .hbm, ⟨84, _⟩ => ⟨S100000x1, .f32⟩
  | .hbm, ⟨85, _⟩ => ⟨S3300000x1, .i32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .hbm, ⟨90, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S10000x128_S128x32_S10000x32_1_0_0_1_n_n_wf : DotDims.WF S10000x128 S128x32 S10000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S32x1, .f32⟩
  | 5 => ⟨S1, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x32, .f32⟩
  | 14 => ⟨S_, .f32⟩
  | 15 => ⟨S100000, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S_, .f32⟩
  | 25 => ⟨S3300000, .f32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x32, .f32⟩
  | 63 => ⟨S3300000x1, .f32⟩
  | 64 => ⟨S3300000x32, .f32⟩
  | 65 => ⟨S3300000x32, .f32⟩
  | 66 => ⟨S_, .f32⟩
  | 67 => ⟨S100000x32, .f32⟩
  | 68 => ⟨S3300000x1, .i32⟩
  | 69 => ⟨S100000x32, .f32⟩
  | 70 => ⟨S1x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000x1, .f32⟩
  | 77 => ⟨S_, .f32⟩
  | 78 => ⟨S100000, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S_, .f32⟩
  | 88 => ⟨S3300000, .f32⟩
  | 89 => ⟨S100000, .f32⟩
  | 90 => ⟨S_, .f32⟩
  | 91 => ⟨S100000, .f32⟩
  | 92 => ⟨S100000, .i1⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000, .f32⟩
  | 116 => ⟨S3300000, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000x1, .f32⟩
  | 126 => ⟨S3300000x1, .f32⟩
  | 127 => ⟨S3300000x1, .f32⟩
  | _ => ⟨S100000x128, .f32⟩

abbrev hbmTy0_1 (i : Nat) : BufTy := match i % 128 with
  | 0 => ⟨S_, .f32⟩
  | 1 => ⟨S100000x1, .f32⟩
  | 2 => ⟨S3300000x1, .i32⟩
  | 3 => ⟨S100000x1, .f32⟩
  | 4 => ⟨S1x1, .f32⟩
  | 5 => ⟨S100000x1, .f32⟩
  | 6 => ⟨S100000x1, .f32⟩
  | 7 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_call2_v0 : Ref sig .tc := ⟨.hbm, 95, rfl⟩
abbrev main_call2_v1 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_c_22 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_23 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.SecondLayer.lean ====
/-
  The second layer of the network as ONE function of its three operands, in the reference's own spelling: the
  aggregated features `o` (100000 × 32), the bias kept as a row `b` (1 × 32) and the weights `w` (32 × 1) go to
  `relu (o + b) · w`, the bias broadcast down the rows, the rectifier a maximum with zero, the product a
  contraction over the 32 features. The reference's stage `val_main_v53` is this function of its own aggregated
  features and of its bias row; at the exact reals an entry of it is the plain sum over the 32 features.
-/
import proofs.«179175_j42073499631700_1_alg».proof.Proof.ReferenceRead

noncomputable section

namespace Cert.ReferenceIdeal.Stage

open Cert.ReferenceIdeal Cert.ReferenceIdeal.Gen Cert.ReferenceIdeal.Read Idealize.ShloMosaic Idealize.ShloMosaic.TcCoe

variable {F : FTy → Type} [FloatOps F]

/-- `relu (o + b) · w`: the bias row broadcast to every row, a maximum with zero, then the contraction over the
    feature axis. -/
def reluLinear (o : (⟨S100000x32, .f32⟩ : BufTy).Contents (Elt F)) (b : (⟨S1x32, .f32⟩ : BufTy).Contents (Elt F))
    (w : (⟨S32x1, .f32⟩ : BufTy).Contents (Elt F)) : (⟨S100000x1, .f32⟩ : BufTy).Contents (Elt F) :=
  Host.dotGeneral dot_S100000x32_S32x1_S100000x1_1_0_0_1_n_n none
    (maximumf (addf o (broadcastInDim S100000x32 ![0, 1] bcast_S1x32_S100000x32_0_1 b)) (val_main_call1_v0 (F := F))) w

/-- The reference's second contraction is `reluLinear` of its aggregated features, its bias row and the weights. -/
theorem val_main_v53_eq (x0 : (⟨S100000x128, .f32⟩ : BufTy).Contents (Elt F)) (x1 : (⟨S2x3200000, .i32⟩ : BufTy).Contents (Elt F))
    (x2 : (⟨S128x32, .f32⟩ : BufTy).Contents (Elt F)) (x3 : (⟨S32, .f32⟩ : BufTy).Contents (Elt F))
    (x4 : (⟨S32x1, .f32⟩ : BufTy).Contents (Elt F)) :
    val_main_v53 (F := F) x0 x1 x2 x3 x4 = reluLinear (val_main_v48 (F := F) x0 x1 x2) (val_main_v49 (F := F) x3) x4 := by
  unfold val_main_v53 val_main_v52 val_main_v51 val_main_v50 reluLinear
  rfl

/-- A contraction of a 100000 × 32 array with a 32 × 1 array, at an entry, over the exact reals: the sum over
    the 32 features of the products. -/
theorem contract32_apply (y : (⟨S100000x32, .f32⟩ : BufTy).Contents (Elt Ideal)) (w : (⟨S32x1, .f32⟩ : BufTy).Contents (Elt Ideal))
    (i : S100000x1.Idx) :
    Host.dotGeneral (F := Ideal) (φ₁ := .f32) (φ₂ := .f32) dot_S100000x32_S32x1_S100000x1_1_0_0_1_n_n none y w i
      = ∑ k : Fin 32, y (lidx_main_v53 i k) * w (ridx_main_v53 i k) := by
  simp only [Host.dotGeneral]
  rw [Ideal.dotGeneral_apply, ← Equiv.sum_comp (ValueIdx.contrEquiv1 dot_S100000x32_S32x1_S100000x1_1_0_0_1_n_n 32 rfl rfl).symm]
  refine Finset.sum_congr rfl fun k _ => ?_
  have hk := ValueIdx.contrEquiv1_symm_val dot_S100000x32_S32x1_S100000x1_1_0_0_1_n_n 32 rfl rfl k
  have el : dot_S100000x32_S32x1_S100000x1_1_0_0_1_n_n.lhsIdx i ((ValueIdx.contrEquiv1 dot_S100000x32_S32x1_S100000x1_1_0_0_1_n_n 32 rfl rfl).symm k) = lidx_main_v53 i k := funext fun a => Fin.ext (by
    match a with
    | ⟨0, _⟩ => exact lhs_main_v53_0 _ _
    | ⟨1, _⟩ => exact (lhs_main_v53_1 _ _).trans hk)
  have er : dot_S100000x32_S32x1_S100000x1_1_0_0_1_n_n.rhsIdx i ((ValueIdx.contrEquiv1 dot_S100000x32_S32x1_S100000x1_1_0_0_1_n_n 32 rfl rfl).symm k) = ridx_main_v53 i k := funext fun a => Fin.ext (by
    match a with
    | ⟨0, _⟩ => exact (rhs_main_v53_0 _ _).trans hk
    | ⟨1, _⟩ => exact rhs_main_v53_1 _ _)
  rw [el, er]

/-- An entry of `reluLinear` over the exact reals: the sum over the 32 features `k` of
    `max (o (r, k) + b (0, k)) 0 · w (k, 0)`, `r` the entry's row. -/
theorem reluLinear_apply (o : (⟨S100000x32, .f32⟩ : BufTy).Contents (Elt Ideal)) (b : (⟨S1x32, .f32⟩ : BufTy).Contents (Elt Ideal))
    (w : (⟨S32x1, .f32⟩ : BufTy).Contents (Elt Ideal)) (i : S100000x1.Idx) :
    reluLinear (F := Ideal) o b w i
      = ∑ k : Fin 32, FloatOps.maximumf (FloatOps.addf (o (lidx_main_v53 i k)) (b (idx_main_v50 (lidx_main_v53 i k))))
          (FloatOps.ofBits (F := Ideal) .f32 0x00000000#32) * w (ridx_main_v53 i k) := by
  unfold reluLinear
  rw [contract32_apply]
  refine Finset.sum_congr rfl fun k _ => ?_
  have e1 : broadcastInDim S100000x32 ![0, 1] bcast_S1x32_S100000x32_0_1 b (lidx_main_v53 i k)
      = b (idx_main_v50 (lidx_main_v53 i k)) :=
    broadcastInDim_apply _ bcast_S1x32_S100000x32_0_1 b (lidx_main_v53 i k) (idx_main_v50 (lidx_main_v53 i k)) (fun a => match a with
      | ⟨0, _⟩ => by show 0 = if (1 : Nat) = 1 then 0 else ((lidx_main_v53 i k) 0).val; rw [if_pos rfl]
      | ⟨1, _⟩ => by show ((lidx_main_v53 i k) 1).val = if (32 : Nat) = 1 then 0 else ((lidx_main_v53 i k) 1).val; rw [if_neg (by decide)])
  have e2 : val_main_call1_v0 (F := Ideal) (lidx_main_v53 i k) = FloatOps.ofBits (F := Ideal) .f32 0x00000000#32 := by
    rw [val_main_call1_v0_apply, val_main_call1_cst_apply]
  rw [← e1, ← e2]
  rfl

end Cert.ReferenceIdeal.Stage

end
-- ==== Proof.FirstLayerBlocks.lean ====
/- The first layer's product, block by block, is the whole product.
   The first call of the idealized kernel runs over ten grid points. At point `t` its body loads rows
   `[10000 t, 10000 t + 10000)` of the left array `x` (100000 × 128) and the whole of the weights `W` (128 × 32), and stores the
   product of the two, accumulated into a zero block, as rows `[10000 t, 10000 t + 10000)` of the result (100000 × 32). At the
   exact reals a change of float format is the identity and a product into the zero block is the plain sum over the
   contracted axis, so entry `(p, q)` of the block stored at point `t` is `∑ k, x (10000 t + p, k) * W (k, q)`: entry
   `(10000 t + p, q)` of `x · W`. Row `r` of the result lies in block `r / 10000`, so the ten blocks cover the result, and the
   array the ten write-backs leave is `x · W` — the reference's `dot_general` of the same two arrays — whatever the arrays
   hold when the region is entered.
   In order: the body's product at an index (`product_apply`); where the blocks sit (`block_index`); one block of the
   product as a block of the whole product, over plain arrays (`product_block`); what a point writes back (`flushed_eq`);
   the cover (`mem_block`, `covered`); the array after the ten points (`firstLayer_final`). -/
import proofs.«179175_j42073499631700_1_alg».proof.Proof.Gen.KernelIdeal.Frame
import proofs.«179175_j42073499631700_1_alg».proof.Proof.ReferenceRead
import Idealize.ShloMosaic.Lib.Pipeline.Value
import Idealize.ShloMosaic.Lib.ValueIdx
import Idealize.ShloMosaic.PureOps.Ideal.Laws

noncomputable section

namespace Cert.KernelIdeal.FirstLayer

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index

At the exact reals a change of float format is the identity and a product accumulated into the zero block is the plain
sum over the contracted axis: entry `(p, q)` of what the body stores is `∑ k, x0 (p, k) * x1 (k, q)`. -/

/-- The left operand's index at output index `i` and contraction index `κ`: row `i 0`, … -/
theorem lhs_row (i : S10000x32.Idx) (κ : dot_S10000x128_S128x32_S10000x32_1_0_0_1_n_n.contr.Idx) :
    (dot_S10000x128_S128x32_S10000x32_1_0_0_1_n_n.lhsIdx i κ 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- … column the contraction index. -/
theorem lhs_col (i : S10000x32.Idx) (κ : dot_S10000x128_S128x32_S10000x32_1_0_0_1_n_n.contr.Idx) :
    (dot_S10000x128_S128x32_S10000x32_1_0_0_1_n_n.lhsIdx i κ 1).val = (κ ⟨0, by decide⟩).val :=
  dot_S10000x128_S128x32_S10000x32_1_0_0_1_n_n.lhsIdx_val_of_single rfl i κ
/-- The right operand's index: row the contraction index, … -/
theorem rhs_row (i : S10000x32.Idx) (κ : dot_S10000x128_S128x32_S10000x32_1_0_0_1_n_n.contr.Idx) :
    (dot_S10000x128_S128x32_S10000x32_1_0_0_1_n_n.rhsIdx i κ 0).val = (κ ⟨0, by decide⟩).val :=
  dot_S10000x128_S128x32_S10000x32_1_0_0_1_n_n.rhsIdx_val_of_single rfl i κ
/-- … column `i 1`. -/
theorem rhs_col (i : S10000x32.Idx) (κ : dot_S10000x128_S128x32_S10000x32_1_0_0_1_n_n.contr.Idx) :
    (dot_S10000x128_S128x32_S10000x32_1_0_0_1_n_n.rhsIdx i κ 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry `(p, q)` of the body's product of a block of rows `x0` with the weights `x1`. -/
theorem product_apply (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 p q) ((ValueIdx.contrEquiv1 dot_S10000x128_S128x32_S10000x32_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x32_S10000x32_1_0_0_1_n_n.rhsIdx (ix2 p q) ((ValueIdx.contrEquiv1 dot_S10000x128_S128x32_S10000x32_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## Where the blocks sit

Point `t` of the ten loads rows `[10000 t, 10000 t + 10000)` of the left array, the whole of the weights, and
stores rows `[10000 t, 10000 t + 10000)` of the result: read off the printed index maps over the ten points. -/

theorem zero_offsets : (![0, 0] : Fin 2 → Nat) = fun _ => 0 := funext fun a => by fin_cases a <;> rfl

/-- The block indices at point `t`: row block `t` of the left array and of the result, block `(0, 0)` of the weights. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## One block of the product is the block of the whole product

`(X · W) (10000 n + p, q) = ∑ k, X (10000 n + p, k) * W (k, q)`: the rows of `X` that a row of the block needs are the
rows the block of `X` holds, and every block uses all of `W`. -/

/-- Over plain arrays: if `x0` is rows `[10000 n, 10000 n + 10000)` of `X` and `x1` is `W`, then entry `j` of the body's
    product is entry `(10000 n + j 0, j 1)` of the whole product `X · W`. -/
theorem product_block (X : (⟨S100000x128, .f32⟩ : BufTy).Contents (Elt Ideal)) (W : (⟨S128x32, .f32⟩ : BufTy).Contents (Elt Ideal))
    (x0 : Vec Ideal S10000x128 .f32) (x1 : Vec Ideal S128x32 .f32) (n : Nat)
    (hx0 : ∀ (y : S10000x128.Idx) (i : S100000x128.Idx), (i 0).val = n * 10000 + 1 * (y 0).val → (i 1).val = (y 1).val → x0 y = X i)
    (hx1 : ∀ y : S128x32.Idx, x1 y = W y)
    (j : S10000x32.Idx) (i : S100000x32.Idx) (hi0 : (i 0).val = n * 10000 + 1 * (j 0).val) (hi1 : (i 1).val = (j 1).val) :
    k0_pay1 (F := Ideal) x0 x1 j = Cert.ReferenceIdeal.Read.val_main_v7 (F := Ideal) X W i := by
  obtain ⟨p, q, rfl⟩ : ∃ (p : Fin 10000) (q : Fin 32), j = ix2 p q := ⟨j 0, j 1, eq_ix2 j⟩
  rw [product_apply, Cert.ReferenceIdeal.Read.val_main_v7_apply]
  refine Finset.sum_congr rfl fun k _ => ?_
  rw [hx0 (ix2 p k) (Cert.ReferenceIdeal.Read.lidx_main_v7 i k) hi0 rfl, hx1]
  congr 2
  funext a
  apply Fin.ext
  match a with
  | ⟨0, _⟩ => rfl
  | ⟨1, _⟩ => exact hi1.symm

/-! ## What each point writes back, and the array the ten write-backs leave -/

section Region
variable (V : (c : Dev nD) → (b : Ref sig .tc) → Buf (Elt Ideal) ((c : Thread nD τ).loc b))

/-- WHAT POINT `t` WRITES BACK is block `t` of the whole product of the two arrays as the region finds them. -/
theorem flushed_eq (c : Dev nD) (t : Fin cfg0.N) :
    (dat0 (F := Ideal) V c).flushed 2 t
      = ((cfg0.win 2).blk t).view.read (Elt Ideal) (Cert.ReferenceIdeal.Read.val_main_v7 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x32) zero_offsets]
  obtain ⟨e0, e1, e2, e3, e4, e5⟩ := block_index t
  funext j
  rw [View.read_apply]
  refine product_block (V c main_arg0) (V c main_arg2) (iblk0 V c 0 t) (iblk0 V c 1 t) t.val ?_ ?_ _ _ ?_ ?_
  · intro y i h0 h1
    show V c main_arg0 (((cfg0.win 0).blk t).view.emb y) = V c main_arg0 i
    congr 1; funext a; apply Fin.ext
    match a with
    | ⟨0, _⟩ => show win0_0.index t (0 : Fin 2) * 10000 + 1 * (y 0).val = (i 0).val; omega
    | ⟨1, _⟩ => show win0_0.index t (1 : Fin 2) * 128 + 1 * (y 1).val = (i 1).val; omega
  · intro y
    show V c main_arg2 (((cfg0.win 1).blk t).view.emb y) = V c main_arg2 y
    congr 1; funext a; apply Fin.ext
    match a with
    | ⟨0, _⟩ => show win0_1.index t (0 : Fin 2) * 128 + 1 * (y 0).val = (y 0).val; omega
    | ⟨1, _⟩ => show win0_1.index t (1 : Fin 2) * 32 + 1 * (y 1).val = (y 1).val; omega
  · show win0_2.index t (0 : Fin 2) * 10000 + 1 * (j 0).val = t.val * 10000 + 1 * (j 0).val; omega
  · show win0_2.index t (1 : Fin 2) * 32 + 1 * (j 1).val = (j 1).val; omega

/-- An index of the result array is in point `t`'s block iff each coordinate is in the block's range on its axis. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v7).slice (win0_2.rect t)).set ↔ _
  rw [View.set_slice_whole, Rect.mem_set_unit]
  exact Iff.rfl

/-- The ten blocks cover the result array: row `r` lies in block `r / 10000`. -/
theorem covered (i : S100000x32.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 32 := (i 1).isLt
  obtain ⟨t, ht⟩ : ∃ t : Fin cfg0.N, t.val = (i 0).val / 10000 := ⟨⟨(i 0).val / 10000, by omega⟩, rfl⟩
  obtain ⟨-, -, -, -, e4, e5⟩ := block_index t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE ARRAY the ten write-backs leave is the whole product, for any contents `V` at the region's entry. -/
theorem firstLayer_final (c : Dev nD) :
    (dat0 (F := Ideal) V c).arrAt 2 cfg0.N
      = Cert.ReferenceIdeal.Read.val_main_v7 (F := Ideal) (V c main_arg0) (V c main_arg2) :=
  (dat0 V c).arrAt_eq_of_cover 2 _ (fun t _ => flushed_eq V c t) covered

end Region

end Cert.KernelIdeal.FirstLayer

end
-- ==== Proof.SecondLayerBlocks.lean ====
/-
  The second layer, block by block. The second call walks a grid of ten points; at point `t` it loads rows
  `[10000 t, 10000 t + 10000)` of the aggregated features `o` (100000 × 32), the whole bias row `b` (1 × 32) and the
  whole of the weights `w` (32 × 1), and stores `relu (o + b) · w` of that row block to block `t` of the result
  (100000 × 1). At the exact reals a change of float format is the identity and a product accumulated into zero is the
  plain sum over the 32 features, so what point `t` writes back is the restriction to block `t` of ONE function of the
  whole arrays, `reluLinear o b w`; the ten blocks tile the result (row `r` lies in block `r / 10000`), so after the
  last point the result array holds `reluLinear o b w` — whatever the arrays held when the region was entered.
-/
import proofs.«179175_j42073499631700_1_alg».proof.Proof.SecondLayer
import proofs.«179175_j42073499631700_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SecondLayer

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction's operand indices

The product contracts the features: at output entry (row, column) and feature `r` the left operand is read at
(row, `r`) and the right operand at (`r`, column). -/

/-- The left operand's row is the output entry's row; -/
theorem lhsIdx_row (j : S10000x1.Idx) (r : dot_S10000x32_S32x1_S10000x1_1_0_0_1_n_n.contr.Idx) :
    (dot_S10000x32_S32x1_S10000x1_1_0_0_1_n_n.lhsIdx j r 0).val = (j 0).val := by
  unfold DotDims.lhsIdx
  rw [dif_neg (show ¬(0 : Fin S10000x32.rank) ∈ dot_S10000x32_S32x1_S10000x1_1_0_0_1_n_n.lhsBatch by decide),
    dif_pos (show (0 : Fin S10000x32.rank) ∈ dot_S10000x32_S32x1_S10000x1_1_0_0_1_n_n.lhsNonContracting by decide)]
  rfl
/-- its column is the contracted feature. -/
theorem lhsIdx_feature (j : S10000x1.Idx) (r : dot_S10000x32_S32x1_S10000x1_1_0_0_1_n_n.contr.Idx) :
    (dot_S10000x32_S32x1_S10000x1_1_0_0_1_n_n.lhsIdx j r 1).val = (r ⟨0, by decide⟩).val :=
  dot_S10000x32_S32x1_S10000x1_1_0_0_1_n_n.lhsIdx_val_of_single rfl j r
/-- The right operand's row is the contracted feature; -/
theorem rhsIdx_feature (j : S10000x1.Idx) (r : dot_S10000x32_S32x1_S10000x1_1_0_0_1_n_n.contr.Idx) :
    (dot_S10000x32_S32x1_S10000x1_1_0_0_1_n_n.rhsIdx j r 0).val = (r ⟨0, by decide⟩).val :=
  dot_S10000x32_S32x1_S10000x1_1_0_0_1_n_n.rhsIdx_val_of_single rfl j r
/-- its column is the output entry's column. -/
theorem rhsIdx_col (j : S10000x1.Idx) (r : dot_S10000x32_S32x1_S10000x1_1_0_0_1_n_n.contr.Idx) :
    (dot_S10000x32_S32x1_S10000x1_1_0_0_1_n_n.rhsIdx j r 1).val = (j 1).val := by
  unfold DotDims.rhsIdx
  rw [dif_neg (show ¬(1 : Fin S32x1.rank) ∈ dot_S10000x32_S32x1_S10000x1_1_0_0_1_n_n.rhsBatch by decide),
    dif_pos (show (1 : Fin S32x1.rank) ∈ dot_S10000x32_S32x1_S10000x1_1_0_0_1_n_n.rhsNonContracting by decide)]
  rfl

/-! ## One row block's result at an entry -/

/-- What a point stores, at entry (`p`, `q`) of its 10000 × 1 block, from the three blocks it loaded: the sum over
    the 32 features `k` of `max (x0 (p, k) + x1 (0, k)) 0 · x2 (k, q)`. The two casts to the same shape are the
    identity, the bias row is broadcast down the rows, the rectifier is a maximum with the zero word, the two
    changes of float format are the identity at the exact reals, and the product into the zero accumulator is the
    plain sum over the contracted feature. -/
theorem rowBlock_apply (x0 : Vec Ideal S10000x32 .f32) (x1 : Vec Ideal S1x32 .f32) (x2 : Vec Ideal S32x1 .f32)
    (p : Fin 10000) (q : Fin 1) :
    k1_pay1 x0 x1 x2 (ix2 p q)
      = ∑ k : Fin 32, max (x0 (ix2 p k) + x1 (ix2 (0 : Fin 1) k)) (Ideal.ofBits .f32 0x00000000#32) * x2 (ix2 k q) := by
  unfold k1_pay1
  simp only [shapeCast_self]
  refine (Ideal.matmul_constant_zero_apply dot_S10000x32_S32x1_S10000x1_1_0_0_1_n_n none _ _ (ix2 p q)).trans ?_
  rw [← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 p q) ((contrEquiv1 dot_S10000x32_S32x1_S10000x1_1_0_0_1_n_n 32 rfl rfl).symm k) = ix2 p k :=
    funext fun a => Fin.ext (by
      match a with
      | ⟨0, _⟩ => exact lhsIdx_row _ _
      | ⟨1, _⟩ => exact (lhsIdx_feature _ _).trans hk)
  have er : dot_S10000x32_S32x1_S10000x1_1_0_0_1_n_n.rhsIdx (ix2 p q) ((contrEquiv1 dot_S10000x32_S32x1_S10000x1_1_0_0_1_n_n 32 rfl rfl).symm k) = ix2 k q :=
    funext fun a => Fin.ext (by
      match a with
      | ⟨0, _⟩ => exact (rhsIdx_feature _ _).trans hk
      | ⟨1, _⟩ => exact rhsIdx_col _ _)
  rw [el, er, truncf_apply, truncf_apply, maximumf_apply, addf_apply, broadcast_apply, broadcastTo_1b_ab_apply]
  rfl

/-- The same entry against the whole-array function: when the loaded features' row `p` is row `i`'s of `o`, the
    loaded bias row is `b`'s and the loaded weights' column `q` is `w`'s at `i`'s column, feature by feature, the
    block's entry (`p`, `q`) is entry `i` of `reluLinear o b w`: the two sums agree term by term. -/
theorem rowBlock_eq_reluLinear (o : (⟨Cert.ReferenceIdeal.S100000x32, .f32⟩ : BufTy).Contents (Elt Ideal))
    (b : (⟨Cert.ReferenceIdeal.S1x32, .f32⟩ : BufTy).Contents (Elt Ideal))
    (w : (⟨Cert.ReferenceIdeal.S32x1, .f32⟩ : BufTy).Contents (Elt Ideal))
    (x0 : Vec Ideal S10000x32 .f32) (x1 : Vec Ideal S1x32 .f32) (x2 : Vec Ideal S32x1 .f32)
    (p : Fin 10000) (q : Fin 1) (i : Cert.ReferenceIdeal.S100000x1.Idx)
    (h0 : ∀ k : Fin 32, x0 (ix2 p k) = o (Cert.ReferenceIdeal.Read.lidx_main_v53 i k))
    (h1 : ∀ k : Fin 32, x1 (ix2 (0 : Fin 1) k) = b (Cert.ReferenceIdeal.Read.idx_main_v50 (Cert.ReferenceIdeal.Read.lidx_main_v53 i k)))
    (h2 : ∀ k : Fin 32, x2 (ix2 k q) = w (Cert.ReferenceIdeal.Read.ridx_main_v53 i k)) :
    k1_pay1 x0 x1 x2 (ix2 p q) = Cert.ReferenceIdeal.Stage.reluLinear (F := Ideal) o b w i := by
  rw [rowBlock_apply, Cert.ReferenceIdeal.Stage.reluLinear_apply]
  refine Finset.sum_congr rfl fun k _ => ?_
  rw [h0 k, h1 k, h2 k]
  rfl

/-! ## Which rows a point touches -/

theorem zeroOffsets : (![0, 0] : Fin 2 → Nat) = fun _ => 0 := funext fun a => by fin_cases a <;> rfl

/-- The four index maps over the ten points: the features' block moves down the rows with the result's block and
    stays at column block 0; the bias row and the weights stay at block (0, 0); the result's block at point `t` is
    row block `t`, column block 0. -/
theorem blockIndex_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `reluLinear o b w`, of the three arrays as the region finds them. A
    block's coordinate on an axis is its block index times the block's extent plus the coordinate inside the block:
    entry (`p`, `q`) of result block `t` is entry (10000 t + p, q) of the array, and the features the point loaded at
    (`p`, `k`) are `o`'s at (10000 t + p, `k`); the bias row and the weights are loaded whole. -/
theorem flushed_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal)
      (Cert.ReferenceIdeal.Stage.reluLinear (F := Ideal) (V c main_v48) (V c main_v49) (V c main_arg4)) := by
  show (cfg1.win 3).cut (grid1.coords t) ((dat1 V c).after 3 t) = _
  rw [after1_3]
  unfold out1_3
  rw [View.canon_unit_zero zeroOffsets]
  simp only [View.ld_unit_zero (S := S10000x32) zeroOffsets, View.ld_unit_zero (S := S1x32) zeroOffsets,
    View.ld_unit_zero (S := S32x1) zeroOffsets]
  obtain ⟨e0, e1, e2, e3, e4, e5, e6, e7⟩ := blockIndex_facts t
  funext j
  obtain ⟨p, q, rfl⟩ : ∃ (p : Fin 10000) (q : Fin 1), j = ix2 p q := ⟨j 0, j 1, eq_ix2 j⟩
  show k1_pay1 (iblk1 V c 0 t) (iblk1 V c 1 t) (iblk1 V c 2 t) (ix2 p q)
    = Cert.ReferenceIdeal.Stage.reluLinear (F := Ideal) (V c main_v48) (V c main_v49) (V c main_arg4) (((cfg1.win 3).blk t).view.emb (ix2 p q))
  refine rowBlock_eq_reluLinear (V c main_v48) (V c main_v49) (V c main_arg4) (iblk1 V c 0 t) (iblk1 V c 1 t) (iblk1 V c 2 t) p q _ ?_ ?_ ?_
  · intro k
    show V c main_v48 (((cfg1.win 0).blk t).view.emb (ix2 p k)) = V c main_v48 _
    refine congrArg _ (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 32 + 1 * k.val = k.val; omega
  · intro k
    show V c main_v49 (((cfg1.win 1).blk t).view.emb (ix2 (0 : Fin 1) k)) = V c main_v49 _
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * k.val = k.val; omega
  · intro k
    show V c main_arg4 (((cfg1.win 2).blk t).view.emb (ix2 k q)) = V c main_arg4 _
    refine congrArg _ (funext fun a => Fin.ext ?_)
    match a with
    | ⟨0, _⟩ => show win1_2.index t (0 : Fin 2) * 32 + 1 * k.val = k.val; omega
    | ⟨1, _⟩ => show win1_2.index t (1 : Fin 2) * 1 + 1 * q.val = win1_3.index t (1 : Fin 2) * 1 + 1 * q.val; omega

/-! ## The ten blocks tile the result -/

/-- An entry of the result is in point `t`'s block iff each coordinate is in the block's range on its axis. -/
theorem mem_block (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v50).slice (win1_3.rect t)).set ↔ _
  rw [View.set_slice_whole, Rect.mem_set_unit]
  exact Iff.rfl

/-- Every entry of the result is in some point's block: row `r` lies in block `r / 10000`, and every point writes
    its block back. -/
theorem covered (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : grid1.N = 10 := N_1
  have ht : (i 0).val / 10000 < cfg1.N := by show _ < grid1.N; rw [hN]; omega
  obtain ⟨-, -, -, -, -, -, e6, e7⟩ := blockIndex_facts ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, ht⟩ (1 : Fin 2) * 1 ≤ (i 1).val ∧ (i 1).val < win1_3.index ⟨(i 0).val / 10000, ht⟩ (1 : Fin 2) * 1 + 1
    omega

/-! ## The result array after the last point -/

/-- THE RESULT ARRAY after the ten write-backs is `relu (o + b) · w` of the aggregated features, the bias row and the
    weights as the region finds them: each point writes its block of that one function, and the blocks cover the array. -/
theorem secondLayer_final (V : (c : Dev nD) → (b : Ref sig .tc) → Buf (Elt Ideal) ((c : Thread nD τ).loc b)) (c : Dev nD) :
    (dat1 (F := Ideal) V c).arrAt 3 cfg1.N
      = Cert.ReferenceIdeal.Stage.reluLinear (F := Ideal) (V c main_v48) (V c main_v49) (V c main_arg4) :=
  (dat1 (F := Ideal) V c).arrAt_eq_of_cover 3
    (Cert.ReferenceIdeal.Stage.reluLinear (F := Ideal) (V c main_v48) (V c main_v49) (V c main_arg4))
    (fun t _ => flushed_eq V c t) covered

end Cert.KernelIdeal.SecondLayer

end
-- ==== Proof.LibTypedViews.lean ====
/-
  Typed views of a buffer, there and back.

  A host function that the printer outlines reads and writes its buffers through typed views: contents at the
  value's type `T` are carried to the buffer's own type and back along the equation `x.ty_eq : x.ref.ty = T`
  (`TRef.toBuf`, `TRef.ofBuf`: two transports along that one equation, in opposite directions). Whatever the buffer,
  one transport followed by the other is the identity: the two composites below. A SINGLE view is the identity as
  well, but only where the two types are the same type — at a literal buffer `r` whose printed type is `T`, where
  `(TRef.of (T := T) r).ofBuf a = a` and `(TRef.of (T := T) r).toBuf a = a` are each `cast_eq _ _`; those are
  stated per buffer, since for an abstract buffer the equation does not even typecheck.

  What these are for: an equation between a term read off a run that passed through such views and the same term
  written without them. Taking the views off by these rewrites first keeps the comparison of the two terms from
  looking inside the functions under the views.
-/
import Idealize.ShloMosaic.Lib.StableHlo

namespace Cert.Lib.TypedViews

open Idealize.ShloMosaic Idealize.ShloMosaic.StableHlo

variable {sig : RefSig} {T : BufTy} {Val : EltTy → Type}

/-- Into the buffer's type and back out: the identity on contents at the value's type. -/
theorem ofBuf_toBuf (x : TRef sig T) (v : T.Contents Val) : x.ofBuf (x.toBuf v) = v := by
  unfold TRef.ofBuf TRef.toBuf
  rw [cast_cast, cast_eq]

/-- Out of the buffer's type and back in: the identity on contents at the buffer's type. -/
theorem toBuf_ofBuf (x : TRef sig T) (v : x.ref.ty.Contents Val) : x.toBuf (x.ofBuf v) = v := by
  unfold TRef.ofBuf TRef.toBuf
  rw [cast_cast, cast_eq]

end Cert.Lib.TypedViews
-- ==== Proof.KernelStages.lean ====
/-
  The idealized kernel's boundary contents, stage by stage, are the reference's stages.

  Both programs are a two-layer graph convolution on 100000 nodes. From the edge list they build the source and
  destination columns (the edges followed by one self-loop per node), the in-degree of every node (a scatter-add
  of ones), its inverse square root where the degree is positive and zero elsewhere, and the edge weight
  `norm e = d^(-1/2)(src e) · d^(-1/2)(dst e)`. A layer multiplies the node features by a weight matrix, gathers
  the rows at the sources, scales each by its edge weight and adds them up at the destinations. The kernel
  computes each of the two matrix products in a pipelined call, ten row blocks of 10000, and everything else by
  the SAME host operations, in the same order and with the same constants, as the reference; the reference
  spells the products as whole contractions and computes the edge weights a second time for the second layer.

  So the kernel's buffers are read off its fold of host stretches one stage at a time: the two index columns;
  the first product (the pipelined call's array, by the hypothesis `hfirst`); the aggregated features and the
  edge weights (one stretch of host operations over those); the bias as a row; the second product (by
  `hsecond`); and the last stretch, which aggregates a single column and adds the last bias. The second
  computation of the edge weights in the reference is the first one, operation for operation.
-/
import proofs.«179175_j42073499631700_1_alg».proof.Proof.Gen.KernelIdeal.Frame
import proofs.«179175_j42073499631700_1_alg».proof.Proof.ReferenceRead
import proofs.«179175_j42073499631700_1_alg».proof.Proof.SecondLayer
import proofs.«179175_j42073499631700_1_alg».proof.Proof.LibTypedViews
import Idealize.ShloMosaic.Lib.StableHlo.Run
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-! ## The reference's second edge weights are its first -/

/-- The reference computes the edge weights twice from the same edge list by the same operations. -/
theorem norm_again (x1 : (⟨Cert.ReferenceIdeal.S2x3200000, .i32⟩ : BufTy).Contents (Elt Ideal)) :
    Cert.ReferenceIdeal.Read.val_main_v81 (F := Ideal) x1 = Cert.ReferenceIdeal.Read.val_main_v35 (F := Ideal) x1 := by
  simp only [Cert.ReferenceIdeal.Read.val_main_v81, Cert.ReferenceIdeal.Read.val_main_v73, Cert.ReferenceIdeal.Read.val_main_v80, Cert.ReferenceIdeal.Read.val_main_v72, Cert.ReferenceIdeal.Read.val_main_v71, Cert.ReferenceIdeal.Read.val_main_v68, Cert.ReferenceIdeal.Read.val_main_v70, Cert.ReferenceIdeal.Read.val_main_v67, Cert.ReferenceIdeal.Read.val_main_v69, Cert.ReferenceIdeal.Read.val_main_c_17, Cert.ReferenceIdeal.Read.val_main_c_18, Cert.ReferenceIdeal.Read.val_main_v79, Cert.ReferenceIdeal.Read.val_main_v78, Cert.ReferenceIdeal.Read.val_main_v75, Cert.ReferenceIdeal.Read.val_main_v77, Cert.ReferenceIdeal.Read.val_main_v74, Cert.ReferenceIdeal.Read.val_main_v76, Cert.ReferenceIdeal.Read.val_main_c_19, Cert.ReferenceIdeal.Read.val_main_c_20, Cert.ReferenceIdeal.Read.val_main_v66, Cert.ReferenceIdeal.Read.val_main_call2_v1, Cert.ReferenceIdeal.Read.val_main_call2_v0, Cert.ReferenceIdeal.Read.val_main_cst_16, Cert.ReferenceIdeal.Read.val_main_v64, Cert.ReferenceIdeal.Read.val_main_v65, Cert.ReferenceIdeal.Read.val_main_v63, Cert.ReferenceIdeal.Read.val_main_cst_15, Cert.ReferenceIdeal.Read.val_main_v62, Cert.ReferenceIdeal.Read.val_main_v54, Cert.ReferenceIdeal.Read.val_main_cst_11, Cert.ReferenceIdeal.Read.val_main_v60, Cert.ReferenceIdeal.Read.val_main_v59, Cert.ReferenceIdeal.Read.val_main_v56, Cert.ReferenceIdeal.Read.val_main_v58, Cert.ReferenceIdeal.Read.val_main_v55, Cert.ReferenceIdeal.Read.val_main_c_12, Cert.ReferenceIdeal.Read.val_main_v57, Cert.ReferenceIdeal.Read.val_main_c_13, Cert.ReferenceIdeal.Read.val_main_v61, Cert.ReferenceIdeal.Read.val_main_cst_14, Cert.ReferenceIdeal.Read.val_main_v35, Cert.ReferenceIdeal.Read.val_main_v27, Cert.ReferenceIdeal.Read.val_main_v34, Cert.ReferenceIdeal.Read.val_main_v26, Cert.ReferenceIdeal.Read.val_main_v25, Cert.ReferenceIdeal.Read.val_main_v22, Cert.ReferenceIdeal.Read.val_main_v24, Cert.ReferenceIdeal.Read.val_main_v21, Cert.ReferenceIdeal.Read.val_main_v23, Cert.ReferenceIdeal.Read.val_main_c_4, Cert.ReferenceIdeal.Read.val_main_c_5, Cert.ReferenceIdeal.Read.val_main_v33, Cert.ReferenceIdeal.Read.val_main_v32, Cert.ReferenceIdeal.Read.val_main_v29, Cert.ReferenceIdeal.Read.val_main_v31, Cert.ReferenceIdeal.Read.val_main_v28, Cert.ReferenceIdeal.Read.val_main_v30, Cert.ReferenceIdeal.Read.val_main_c_6, Cert.ReferenceIdeal.Read.val_main_c_7, Cert.ReferenceIdeal.Read.val_main_v20, Cert.ReferenceIdeal.Read.val_main_call0_v1, Cert.ReferenceIdeal.Read.val_main_call0_v0, Cert.ReferenceIdeal.Read.val_main_cst_3, Cert.ReferenceIdeal.Read.val_main_v18, Cert.ReferenceIdeal.Read.val_main_v19, Cert.ReferenceIdeal.Read.val_main_v17, Cert.ReferenceIdeal.Read.val_main_cst_2, Cert.ReferenceIdeal.Read.val_main_v16, Cert.ReferenceIdeal.Read.val_main_v8, Cert.ReferenceIdeal.Read.val_main_cst, Cert.ReferenceIdeal.Read.val_main_v14, Cert.ReferenceIdeal.Read.val_main_v13, Cert.ReferenceIdeal.Read.val_main_v10, Cert.ReferenceIdeal.Read.val_main_v12, Cert.ReferenceIdeal.Read.val_main_v9, Cert.ReferenceIdeal.Read.val_main_c, Cert.ReferenceIdeal.Read.val_main_v11, Cert.ReferenceIdeal.Read.val_main_c_0, Cert.ReferenceIdeal.Read.val_main_v15, Cert.ReferenceIdeal.Read.val_main_cst_1]

/-! ## The bias as a row -/

/-- The kernel keeps the first bias as a 1 × 32 row by a reshape, the reference by a broadcast along a new
    leading axis: the same row. -/
theorem bias_row (x3 : (⟨Cert.ReferenceIdeal.S32, .f32⟩ : BufTy).Contents (Elt Ideal)) :
    shapeCast S1x32 x3 shapeCasts_S32_S1x32 = Cert.ReferenceIdeal.Read.val_main_v49 (F := Ideal) x3 := by
  funext i
  rw [Cert.ReferenceIdeal.Read.val_main_v49_apply]
  exact shapeCast_apply x3 shapeCasts_S32_S1x32 i (Cert.ReferenceIdeal.Read.idx_main_v49 i) (by
    rewrite [Shape.rowMajor_val_one, Shape.rowMajor_val_two]
    have h0 : (i 0).val < 1 := (i 0).isLt
    show (i 1).val = (i 0).val * 32 + (i 1).val
    omega)

/-! ## Typed views of a buffer change nothing

An outlined function reads and writes its buffers through typed views: contents at the value's type carried to the
buffer's type and back along the equation between the two types. At a literal buffer the two types are the same
type, so a view is the identity; a view followed by its inverse is the identity for any buffer (the general lemma
module beside this one). -/

section Views
variable {Val : EltTy → Type} {T : BufTy}

theorem view_positive (a : (⟨S100000, .i1⟩ : BufTy).Contents Val) :
    (TRef.of (T := ⟨S100000, .i1⟩) main_v18).ofBuf a = a := cast_eq _ _
theorem view_rsqrt (a : (⟨S100000, .f32⟩ : BufTy).Contents Val) :
    (TRef.of (T := ⟨S100000, .f32⟩) main_v19).ofBuf a = a := cast_eq _ _
theorem view_zero (a : (⟨S_, .f32⟩ : BufTy).Contents Val) :
    (TRef.of (T := ⟨S_, .f32⟩) main_cst_3).ofBuf a = a := cast_eq _ _
theorem view_choice (a : (⟨S100000, .f32⟩ : BufTy).Contents Val) :
    (TRef.of (T := ⟨S100000, .f32⟩) main_v20).toBuf a = a := cast_eq _ _
end Views

variable (m : (ℓ : Loc nD τ sig) → Buf (Elt Ideal) ℓ) (ρ : Dev nD → PrngReg) (c : Dev nD)

/-! ## Before the first product: the index columns, and the arguments untouched -/

theorem entry0_src : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  simp only [Cert.ReferenceIdeal.Read.val_main_v3, Cert.ReferenceIdeal.Read.val_main_v2, Cert.ReferenceIdeal.Read.val_main_v1, Cert.ReferenceIdeal.Read.val_main_v0]
  rfl

theorem entry0_dst : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  simp only [Cert.ReferenceIdeal.Read.val_main_v6, Cert.ReferenceIdeal.Read.val_main_v5, Cert.ReferenceIdeal.Read.val_main_v4, Cert.ReferenceIdeal.Read.val_main_v0]
  rfl

theorem entry0_arg0 : W1 m ρ c (Proc.devRef .tc main_arg0) = (m ((c : Thread nD τ).loc main_arg0)) := by
  show StableHlo.after hostOps0 (W0 m ρ c) (Proc.devRef .tc main_arg0) = _
  after_results_simp <;> rfl

theorem entry0_arg2 : W1 m ρ c (Proc.devRef .tc main_arg2) = (m ((c : Thread nD τ).loc main_arg2)) := by
  show StableHlo.after hostOps0 (W0 m ρ c) (Proc.devRef .tc main_arg2) = _
  after_results_simp <;> rfl

theorem entry0_arg3 : W1 m ρ c (Proc.devRef .tc main_arg3) = (m ((c : Thread nD τ).loc main_arg3)) := by
  show StableHlo.after hostOps0 (W0 m ρ c) (Proc.devRef .tc main_arg3) = _
  after_results_simp <;> rfl

theorem entry0_arg4 : W1 m ρ c (Proc.devRef .tc main_arg4) = (m ((c : Thread nD τ).loc main_arg4)) := by
  show StableHlo.after hostOps0 (W0 m ρ c) (Proc.devRef .tc main_arg4) = _
  after_results_simp <;> rfl

theorem entry0_arg5 : W1 m ρ c (Proc.devRef .tc main_arg5) = (m ((c : Thread nD τ).loc main_arg5)) := by
  show StableHlo.after hostOps0 (W0 m ρ c) (Proc.devRef .tc main_arg5) = _
  after_results_simp <;> rfl

/-! ## The first product, and what it leaves alone -/

section
variable (hfirst : ∀ (V : (c : Dev nD) → (b : Ref sig .tc) → Buf (Elt Ideal) ((c : Thread nD τ).loc b)) (c : Dev nD),
    (dat0 (F := Ideal) V c).arrAt 2 cfg0.N = Cert.ReferenceIdeal.Read.val_main_v7 (F := Ideal) (V c main_arg0) (V c main_arg2))
include hfirst

theorem exit0_product : W2 m ρ c (Proc.devRef .tc main_v7) = Cert.ReferenceIdeal.Read.val_main_v7 (F := Ideal) (m ((c : Thread nD τ).loc main_arg0)) (m ((c : Thread nD τ).loc main_arg2)) := by
  refine (W2_arr m ρ c 2).trans ((hfirst (V1 m ρ) c).trans ?_)
  show Cert.ReferenceIdeal.Read.val_main_v7 (F := Ideal) (W1 m ρ c (Proc.devRef .tc main_arg0)) (W1 m ρ c (Proc.devRef .tc main_arg2)) = _
  rw [entry0_arg0, entry0_arg2]
end

theorem exit0_src : W2 m ρ c (Proc.devRef .tc main_v3) = Cert.ReferenceIdeal.Read.val_main_v3 (F := Ideal) (m ((c : Thread nD τ).loc main_arg1)) :=
  (W2_of_ne m ρ c main_v3 (by decide)).trans (entry0_src m ρ c)
theorem exit0_dst : W2 m ρ c (Proc.devRef .tc main_v6) = Cert.ReferenceIdeal.Read.val_main_v6 (F := Ideal) (m ((c : Thread nD τ).loc main_arg1)) :=
  (W2_of_ne m ρ c main_v6 (by decide)).trans (entry0_dst m ρ c)
theorem exit0_arg3 : W2 m ρ c (Proc.devRef .tc main_arg3) = (m ((c : Thread nD τ).loc main_arg3)) :=
  (W2_of_ne m ρ c main_arg3 (by decide)).trans (entry0_arg3 m ρ c)
theorem exit0_arg4 : W2 m ρ c (Proc.devRef .tc main_arg4) = (m ((c : Thread nD τ).loc main_arg4)) :=
  (W2_of_ne m ρ c main_arg4 (by decide)).trans (entry0_arg4 m ρ c)
theorem exit0_arg5 : W2 m ρ c (Proc.devRef .tc main_arg5) = (m ((c : Thread nD τ).loc main_arg5)) :=
  (W2_of_ne m ρ c main_arg5 (by decide)).trans (entry0_arg5 m ρ c)

/-! ## Between the products, first stretch: the in-degrees, where they are positive, and their inverse square roots -/

theorem deg_pass_v3 : W3 m ρ c (Proc.devRef .tc main_v3) = W2 m ρ c (Proc.devRef .tc main_v3) := by
  show StableHlo.after hostOps1 (W2 m ρ c) (Proc.devRef .tc main_v3) = _
  generalize W2 m ρ c = X
  after_results_simp
theorem deg_pass_v6 : W3 m ρ c (Proc.devRef .tc main_v6) = W2 m ρ c (Proc.devRef .tc main_v6) := by
  show StableHlo.after hostOps1 (W2 m ρ c) (Proc.devRef .tc main_v6) = _
  generalize W2 m ρ c = X
  after_results_simp
theorem deg_pass_v7 : W3 m ρ c (Proc.devRef .tc main_v7) = W2 m ρ c (Proc.devRef .tc main_v7) := by
  show StableHlo.after hostOps1 (W2 m ρ c) (Proc.devRef .tc main_v7) = _
  generalize W2 m ρ c = X
  after_results_simp
theorem deg_pass_arg3 : W3 m ρ c (Proc.devRef .tc main_arg3) = W2 m ρ c (Proc.devRef .tc main_arg3) := by
  show StableHlo.after hostOps1 (W2 m ρ c) (Proc.devRef .tc main_arg3) = _
  generalize W2 m ρ c = X
  after_results_simp
theorem deg_pass_arg4 : W3 m ρ c (Proc.devRef .tc main_arg4) = W2 m ρ c (Proc.devRef .tc main_arg4) := by
  show StableHlo.after hostOps1 (W2 m ρ c) (Proc.devRef .tc main_arg4) = _
  generalize W2 m ρ c = X
  after_results_simp
theorem deg_pass_arg5 : W3 m ρ c (Proc.devRef .tc main_arg5) = W2 m ρ c (Proc.devRef .tc main_arg5) := by
  show StableHlo.after hostOps1 (W2 m ρ c) (Proc.devRef .tc main_arg5) = _
  generalize W2 m ρ c = X
  after_results_simp

/-- Where the in-degree is positive. -/
theorem deg_positive : W3 m ρ c (Proc.devRef .tc main_v18) = Cert.ReferenceIdeal.Read.val_main_v18 (F := Ideal) (m ((c : Thread nD τ).loc main_arg1)) := by
  have h6 := exit0_dst m ρ c
  show StableHlo.after hostOps1 (W2 m ρ c) (Proc.devRef .tc main_v18) = _
  generalize W2 m ρ c = X at h6 ⊢
  after_results_simp
  rw [h6]
  simp only [Cert.ReferenceIdeal.Read.val_main_v18, Cert.ReferenceIdeal.Read.val_main_v17, Cert.ReferenceIdeal.Read.val_main_cst_2, Cert.ReferenceIdeal.Read.val_main_v16, Cert.ReferenceIdeal.Read.val_main_v8, Cert.ReferenceIdeal.Read.val_main_cst, Cert.ReferenceIdeal.Read.val_main_v14, Cert.ReferenceIdeal.Read.val_main_v13, Cert.ReferenceIdeal.Read.val_main_v10, Cert.ReferenceIdeal.Read.val_main_v9, Cert.ReferenceIdeal.Read.val_main_c, Cert.ReferenceIdeal.Read.val_main_v12, Cert.ReferenceIdeal.Read.val_main_v11, Cert.ReferenceIdeal.Read.val_main_c_0, Cert.ReferenceIdeal.Read.val_main_v15, Cert.ReferenceIdeal.Read.val_main_cst_1]
  rfl

/-- The inverse square root of the in-degree. -/
theorem deg_rsqrt : W3 m ρ c (Proc.devRef .tc main_v19) = Cert.ReferenceIdeal.Read.val_main_v19 (F := Ideal) (m ((c : Thread nD τ).loc main_arg1)) := by
  have h6 := exit0_dst m ρ c
  show StableHlo.after hostOps1 (W2 m ρ c) (Proc.devRef .tc main_v19) = _
  generalize W2 m ρ c = X at h6 ⊢
  after_results_simp
  rw [h6]
  simp only [Cert.ReferenceIdeal.Read.val_main_v19, Cert.ReferenceIdeal.Read.val_main_v16, Cert.ReferenceIdeal.Read.val_main_v8, Cert.ReferenceIdeal.Read.val_main_cst, Cert.ReferenceIdeal.Read.val_main_v14, Cert.ReferenceIdeal.Read.val_main_v13, Cert.ReferenceIdeal.Read.val_main_v10, Cert.ReferenceIdeal.Read.val_main_v9, Cert.ReferenceIdeal.Read.val_main_c, Cert.ReferenceIdeal.Read.val_main_v12, Cert.ReferenceIdeal.Read.val_main_v11, Cert.ReferenceIdeal.Read.val_main_c_0, Cert.ReferenceIdeal.Read.val_main_v15, Cert.ReferenceIdeal.Read.val_main_cst_1]
  rfl

/-- The zero that stands where the in-degree is not positive. -/
theorem deg_zero : W3 m ρ c (Proc.devRef .tc main_cst_3) = Cert.ReferenceIdeal.Read.val_main_cst_3 (F := Ideal) := by
  show StableHlo.after hostOps1 (W2 m ρ c) (Proc.devRef .tc main_cst_3) = _
  generalize W2 m ρ c = X
  after_results_simp
  rfl

/-! ## Second stretch: the choice between the two (an outlined function; its values pass through typed views of
    its buffers, which change nothing) -/

theorem sel_pass_v3 : W4 m ρ c (Proc.devRef .tc main_v3) = W3 m ρ c (Proc.devRef .tc main_v3) := by
  show StableHlo.after hostOps1_1 (W3 m ρ c) (Proc.devRef .tc main_v3) = _
  generalize W3 m ρ c = X
  after_results_simp
theorem sel_pass_v6 : W4 m ρ c (Proc.devRef .tc main_v6) = W3 m ρ c (Proc.devRef .tc main_v6) := by
  show StableHlo.after hostOps1_1 (W3 m ρ c) (Proc.devRef .tc main_v6) = _
  generalize W3 m ρ c = X
  after_results_simp
theorem sel_pass_v7 : W4 m ρ c (Proc.devRef .tc main_v7) = W3 m ρ c (Proc.devRef .tc main_v7) := by
  show StableHlo.after hostOps1_1 (W3 m ρ c) (Proc.devRef .tc main_v7) = _
  generalize W3 m ρ c = X
  after_results_simp
theorem sel_pass_arg3 : W4 m ρ c (Proc.devRef .tc main_arg3) = W3 m ρ c (Proc.devRef .tc main_arg3) := by
  show StableHlo.after hostOps1_1 (W3 m ρ c) (Proc.devRef .tc main_arg3) = _
  generalize W3 m ρ c = X
  after_results_simp
theorem sel_pass_arg4 : W4 m ρ c (Proc.devRef .tc main_arg4) = W3 m ρ c (Proc.devRef .tc main_arg4) := by
  show StableHlo.after hostOps1_1 (W3 m ρ c) (Proc.devRef .tc main_arg4) = _
  generalize W3 m ρ c = X
  after_results_simp
theorem sel_pass_arg5 : W4 m ρ c (Proc.devRef .tc main_arg5) = W3 m ρ c (Proc.devRef .tc main_arg5) := by
  show StableHlo.after hostOps1_1 (W3 m ρ c) (Proc.devRef .tc main_arg5) = _
  generalize W3 m ρ c = X
  after_results_simp

/-- `d^(-1/2)` where the in-degree is positive, zero elsewhere. -/
theorem deg_inv_sqrt : W4 m ρ c (Proc.devRef .tc main_v20) = Cert.ReferenceIdeal.Read.val_main_v20 (F := Ideal) (m ((c : Thread nD τ).loc main_arg1)) := by
  have h18 := deg_positive m ρ c
  have h19 := deg_rsqrt m ρ c
  have h0 := deg_zero m ρ c
  show StableHlo.after hostOps1_1 (W3 m ρ c) (Proc.devRef .tc main_v20) = _
  generalize W3 m ρ c = X at h18 h19 h0 ⊢
  after_results_simp
  rw [h18, h19, h0]
  simp only [Cert.ReferenceIdeal.Read.val_main_v20, Cert.ReferenceIdeal.Read.val_main_call0_v1, Cert.ReferenceIdeal.Read.val_main_call0_v0]
  rw [Cert.Lib.TypedViews.ofBuf_toBuf, Cert.Lib.TypedViews.ofBuf_toBuf, view_positive, view_rsqrt, view_zero, view_choice]

theorem sel_src : W4 m ρ c (Proc.devRef .tc main_v3) = Cert.ReferenceIdeal.Read.val_main_v3 (F := Ideal) (m ((c : Thread nD τ).loc main_arg1)) :=
  (sel_pass_v3 m ρ c).trans ((deg_pass_v3 m ρ c).trans (exit0_src m ρ c))
theorem sel_dst : W4 m ρ c (Proc.devRef .tc main_v6) = Cert.ReferenceIdeal.Read.val_main_v6 (F := Ideal) (m ((c : Thread nD τ).loc main_arg1)) :=
  (sel_pass_v6 m ρ c).trans ((deg_pass_v6 m ρ c).trans (exit0_dst m ρ c))
theorem sel_arg3 : W4 m ρ c (Proc.devRef .tc main_arg3) = (m ((c : Thread nD τ).loc main_arg3)) :=
  (sel_pass_arg3 m ρ c).trans ((deg_pass_arg3 m ρ c).trans (exit0_arg3 m ρ c))
theorem sel_arg4 : W4 m ρ c (Proc.devRef .tc main_arg4) = (m ((c : Thread nD τ).loc main_arg4)) :=
  (sel_pass_arg4 m ρ c).trans ((deg_pass_arg4 m ρ c).trans (exit0_arg4 m ρ c))
theorem sel_arg5 : W4 m ρ c (Proc.devRef .tc main_arg5) = (m ((c : Thread nD τ).loc main_arg5)) :=
  (sel_pass_arg5 m ρ c).trans ((deg_pass_arg5 m ρ c).trans (exit0_arg5 m ρ c))

/-! ## Third stretch: the edge weights, the aggregated features, the bias as a row -/

theorem agg_pass_v3 : W5 m ρ c (Proc.devRef .tc main_v3) = W4 m ρ c (Proc.devRef .tc main_v3) := by
  show StableHlo.after hostOps1_2 (W4 m ρ c) (Proc.devRef .tc main_v3) = _
  generalize W4 m ρ c = X
  after_results_simp
theorem agg_pass_v6 : W5 m ρ c (Proc.devRef .tc main_v6) = W4 m ρ c (Proc.devRef .tc main_v6) := by
  show StableHlo.after hostOps1_2 (W4 m ρ c) (Proc.devRef .tc main_v6) = _
  generalize W4 m ρ c = X
  after_results_simp
theorem agg_pass_arg4 : W5 m ρ c (Proc.devRef .tc main_arg4) = W4 m ρ c (Proc.devRef .tc main_arg4) := by
  show StableHlo.after hostOps1_2 (W4 m ρ c) (Proc.devRef .tc main_arg4) = _
  generalize W4 m ρ c = X
  after_results_simp
theorem agg_pass_arg5 : W5 m ρ c (Proc.devRef .tc main_arg5) = W4 m ρ c (Proc.devRef .tc main_arg5) := by
  show StableHlo.after hostOps1_2 (W4 m ρ c) (Proc.devRef .tc main_arg5) = _
  generalize W4 m ρ c = X
  after_results_simp

/-- The edge weights `d^(-1/2)(src e) · d^(-1/2)(dst e)`. -/
theorem entry1_norm : W5 m ρ c (Proc.devRef .tc main_v35) = Cert.ReferenceIdeal.Read.val_main_v35 (F := Ideal) (m ((c : Thread nD τ).loc main_arg1)) := by
  have h20 := deg_inv_sqrt m ρ c
  have h3 := sel_src m ρ c
  have h6 := sel_dst m ρ c
  show StableHlo.after hostOps1_2 (W4 m ρ c) (Proc.devRef .tc main_v35) = _
  generalize W4 m ρ c = X at h20 h3 h6 ⊢
  after_results_simp
  rw [h20, h3, h6]
  simp only [Cert.ReferenceIdeal.Read.val_main_v35, Cert.ReferenceIdeal.Read.val_main_v27, Cert.ReferenceIdeal.Read.val_main_v34, Cert.ReferenceIdeal.Read.val_main_v26, Cert.ReferenceIdeal.Read.val_main_v25, Cert.ReferenceIdeal.Read.val_main_v22, Cert.ReferenceIdeal.Read.val_main_v24, Cert.ReferenceIdeal.Read.val_main_v21, Cert.ReferenceIdeal.Read.val_main_v23, Cert.ReferenceIdeal.Read.val_main_c_4, Cert.ReferenceIdeal.Read.val_main_c_5, Cert.ReferenceIdeal.Read.val_main_v33, Cert.ReferenceIdeal.Read.val_main_v32, Cert.ReferenceIdeal.Read.val_main_v29, Cert.ReferenceIdeal.Read.val_main_v31, Cert.ReferenceIdeal.Read.val_main_v28, Cert.ReferenceIdeal.Read.val_main_v30, Cert.ReferenceIdeal.Read.val_main_c_6, Cert.ReferenceIdeal.Read.val_main_c_7]
  rfl

section
variable (hfirst : ∀ (V : (c : Dev nD) → (b : Ref sig .tc) → Buf (Elt Ideal) ((c : Thread nD τ).loc b)) (c : Dev nD),
    (dat0 (F := Ideal) V c).arrAt 2 cfg0.N = Cert.ReferenceIdeal.Read.val_main_v7 (F := Ideal) (V c main_arg0) (V c main_arg2))
include hfirst

theorem sel_product : W4 m ρ c (Proc.devRef .tc main_v7) = Cert.ReferenceIdeal.Read.val_main_v7 (F := Ideal) (m ((c : Thread nD τ).loc main_arg0)) (m ((c : Thread nD τ).loc main_arg2)) :=
  (sel_pass_v7 m ρ c).trans ((deg_pass_v7 m ρ c).trans (exit0_product m ρ c hfirst))

/-- The aggregated features of the first layer: gather the product's rows at the sources, scale by the edge
    weights, add up at the destinations. -/
theorem entry1_agg : W5 m ρ c (Proc.devRef .tc main_v48) = Cert.ReferenceIdeal.Read.val_main_v48 (F := Ideal) (m ((c : Thread nD τ).loc main_arg0)) (m ((c : Thread nD τ).loc main_arg1)) (m ((c : Thread nD τ).loc main_arg2)) := by
  have h7 := sel_product m ρ c hfirst
  have h20 := deg_inv_sqrt m ρ c
  have h3 := sel_src m ρ c
  have h6 := sel_dst m ρ c
  show StableHlo.after hostOps1_2 (W4 m ρ c) (Proc.devRef .tc main_v48) = _
  generalize W4 m ρ c = X at h7 h20 h3 h6 ⊢
  after_results_simp
  rw [h7, h20, h3, h6]
  simp only [Cert.ReferenceIdeal.Read.val_main_v48, Cert.ReferenceIdeal.Read.val_main_v46, Cert.ReferenceIdeal.Read.val_main_cst_10, Cert.ReferenceIdeal.Read.val_main_v47, Cert.ReferenceIdeal.Read.val_main_v45, Cert.ReferenceIdeal.Read.val_main_v42, Cert.ReferenceIdeal.Read.val_main_v41, Cert.ReferenceIdeal.Read.val_main_v40, Cert.ReferenceIdeal.Read.val_main_v37, Cert.ReferenceIdeal.Read.val_main_v39, Cert.ReferenceIdeal.Read.val_main_v36, Cert.ReferenceIdeal.Read.val_main_v38, Cert.ReferenceIdeal.Read.val_main_c_8, Cert.ReferenceIdeal.Read.val_main_c_9, Cert.ReferenceIdeal.Read.val_main_v44, Cert.ReferenceIdeal.Read.val_main_v43, Cert.ReferenceIdeal.Read.val_main_v35, Cert.ReferenceIdeal.Read.val_main_v27, Cert.ReferenceIdeal.Read.val_main_v34, Cert.ReferenceIdeal.Read.val_main_v26, Cert.ReferenceIdeal.Read.val_main_v25, Cert.ReferenceIdeal.Read.val_main_v22, Cert.ReferenceIdeal.Read.val_main_v24, Cert.ReferenceIdeal.Read.val_main_v21, Cert.ReferenceIdeal.Read.val_main_v23, Cert.ReferenceIdeal.Read.val_main_c_4, Cert.ReferenceIdeal.Read.val_main_c_5, Cert.ReferenceIdeal.Read.val_main_v33, Cert.ReferenceIdeal.Read.val_main_v32, Cert.ReferenceIdeal.Read.val_main_v29, Cert.ReferenceIdeal.Read.val_main_v31, Cert.ReferenceIdeal.Read.val_main_v28, Cert.ReferenceIdeal.Read.val_main_v30, Cert.ReferenceIdeal.Read.val_main_c_6, Cert.ReferenceIdeal.Read.val_main_c_7]
  rfl
end

theorem entry1_src : W5 m ρ c (Proc.devRef .tc main_v3) = Cert.ReferenceIdeal.Read.val_main_v3 (F := Ideal) (m ((c : Thread nD τ).loc main_arg1)) :=
  (agg_pass_v3 m ρ c).trans (sel_src m ρ c)
theorem entry1_dst : W5 m ρ c (Proc.devRef .tc main_v6) = Cert.ReferenceIdeal.Read.val_main_v6 (F := Ideal) (m ((c : Thread nD τ).loc main_arg1)) :=
  (agg_pass_v6 m ρ c).trans (sel_dst m ρ c)
theorem entry1_arg4 : W5 m ρ c (Proc.devRef .tc main_arg4) = (m ((c : Thread nD τ).loc main_arg4)) :=
  (agg_pass_arg4 m ρ c).trans (sel_arg4 m ρ c)
theorem entry1_arg5 : W5 m ρ c (Proc.devRef .tc main_arg5) = (m ((c : Thread nD τ).loc main_arg5)) :=
  (agg_pass_arg5 m ρ c).trans (sel_arg5 m ρ c)
/-- The first bias as a row. -/
theorem entry1_bias : W5 m ρ c (Proc.devRef .tc main_v49) = Cert.ReferenceIdeal.Read.val_main_v49 (F := Ideal) (m ((c : Thread nD τ).loc main_arg3)) := by
  have h3 := sel_arg3 m ρ c
  show StableHlo.after hostOps1_2 (W4 m ρ c) (Proc.devRef .tc main_v49) = _
  generalize W4 m ρ c = X at h3 ⊢
  after_results_simp
  rw [h3]
  exact bias_row _

/-! ## The second product, and what it leaves alone -/

section
variable (hfirst : ∀ (V : (c : Dev nD) → (b : Ref sig .tc) → Buf (Elt Ideal) ((c : Thread nD τ).loc b)) (c : Dev nD),
    (dat0 (F := Ideal) V c).arrAt 2 cfg0.N = Cert.ReferenceIdeal.Read.val_main_v7 (F := Ideal) (V c main_arg0) (V c main_arg2))
variable (hsecond : ∀ (V : (c : Dev nD) → (b : Ref sig .tc) → Buf (Elt Ideal) ((c : Thread nD τ).loc b)) (c : Dev nD),
    (dat1 (F := Ideal) V c).arrAt 3 cfg1.N
      = Cert.ReferenceIdeal.Stage.reluLinear (F := Ideal) (V c main_v48) (V c main_v49) (V c main_arg4))
include hfirst hsecond

theorem exit1_product : W6 m ρ c (Proc.devRef .tc main_v50)
    = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((hsecond (V5 m ρ) c).trans ?_)
  show Cert.ReferenceIdeal.Stage.reluLinear (F := Ideal) (W5 m ρ c (Proc.devRef .tc main_v48)) (W5 m ρ c (Proc.devRef .tc main_v49))
      (W5 m ρ c (Proc.devRef .tc main_arg4)) = _
  rw [entry1_agg m ρ c hfirst, entry1_bias m ρ c, entry1_arg4 m ρ c, Cert.ReferenceIdeal.Stage.val_main_v53_eq]
end

theorem exit1_src : W6 m ρ c (Proc.devRef .tc main_v3) = Cert.ReferenceIdeal.Read.val_main_v3 (F := Ideal) (m ((c : Thread nD τ).loc main_arg1)) :=
  (W6_of_ne m ρ c main_v3 (by decide)).trans (entry1_src m ρ c)
theorem exit1_dst : W6 m ρ c (Proc.devRef .tc main_v6) = Cert.ReferenceIdeal.Read.val_main_v6 (F := Ideal) (m ((c : Thread nD τ).loc main_arg1)) :=
  (W6_of_ne m ρ c main_v6 (by decide)).trans (entry1_dst m ρ c)
theorem exit1_norm : W6 m ρ c (Proc.devRef .tc main_v35) = Cert.ReferenceIdeal.Read.val_main_v35 (F := Ideal) (m ((c : Thread nD τ).loc main_arg1)) :=
  (W6_of_ne m ρ c main_v35 (by decide)).trans (entry1_norm m ρ c)
theorem exit1_arg5 : W6 m ρ c (Proc.devRef .tc main_arg5) = (m ((c : Thread nD τ).loc main_arg5)) :=
  (W6_of_ne m ρ c main_arg5 (by decide)).trans (entry1_arg5 m ρ c)

/-! ## The last stretch: the second layer's aggregation, the last bias, and the result as a vector -/

section
variable (hfirst : ∀ (V : (c : Dev nD) → (b : Ref sig .tc) → Buf (Elt Ideal) ((c : Thread nD τ).loc b)) (c : Dev nD),
    (dat0 (F := Ideal) V c).arrAt 2 cfg0.N = Cert.ReferenceIdeal.Read.val_main_v7 (F := Ideal) (V c main_arg0) (V c main_arg2))
variable (hsecond : ∀ (V : (c : Dev nD) → (b : Ref sig .tc) → Buf (Elt Ideal) ((c : Thread nD τ).loc b)) (c : Dev nD),
    (dat1 (F := Ideal) V c).arrAt 3 cfg1.N
      = Cert.ReferenceIdeal.Stage.reluLinear (F := Ideal) (V c main_v48) (V c main_v49) (V c main_arg4))
include hfirst hsecond

/-- The kernel's result buffer at the end of its run is the reference's last stage of the six arguments. -/
theorem result_eq : W7 m ρ c (Proc.devRef .tc main_v66)
    = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v66) = _
  after_results_simp
  rw [exit1_product m ρ c hfirst hsecond, exit1_src m ρ c, exit1_dst m ρ c, exit1_norm m ρ c, exit1_arg5 m ρ c]
  simp only [Cert.ReferenceIdeal.Read.val_main_v97, Cert.ReferenceIdeal.Read.val_main_v96, Cert.ReferenceIdeal.Read.val_main_v95, Cert.ReferenceIdeal.Read.val_main_v94, Cert.ReferenceIdeal.Read.val_main_v93, Cert.ReferenceIdeal.Read.val_main_v91, Cert.ReferenceIdeal.Read.val_main_cst_23, Cert.ReferenceIdeal.Read.val_main_v92, Cert.ReferenceIdeal.Read.val_main_v90, Cert.ReferenceIdeal.Read.val_main_v88, Cert.ReferenceIdeal.Read.val_main_v87, Cert.ReferenceIdeal.Read.val_main_v86, Cert.ReferenceIdeal.Read.val_main_v83, Cert.ReferenceIdeal.Read.val_main_v85, Cert.ReferenceIdeal.Read.val_main_v82, Cert.ReferenceIdeal.Read.val_main_v84, Cert.ReferenceIdeal.Read.val_main_c_21, Cert.ReferenceIdeal.Read.val_main_c_22, Cert.ReferenceIdeal.Read.val_main_v89, norm_again]
  rfl
end

end Cert.KernelIdeal.Stages

end
-- ==== Proof.lean ====
/-
  The certificate's claim. Both programs are a two-layer graph convolution on 100000 nodes with 3200000 edges and
  one self-loop per node: each layer multiplies the node features by a weight matrix, gathers rows at the edge
  sources, scales them by the symmetric edge weights `d^(-1/2)(src) · d^(-1/2)(dst)` and adds them up at the edge
  destinations; a bias and a rectifier sit between the layers and a last bias after the second.

  The kernel computes the two matrix products in pipelined calls over ten blocks of 10000 rows and everything else
  by the same host operations as the reference. At the exact reals a change of float format is the identity and a
  block product into a zero accumulator is the plain sum over the contracted axis, so each pipelined call leaves
  the whole product (Proof/FirstLayerBlocks.lean, Proof/SecondLayerBlocks.lean), and stage by stage the kernel's
  buffers hold the reference's stages (Proof/KernelStages.lean). No law of arithmetic beyond that is used: the two
  sides are the same sums of the same products in the same order, so the finiteness of the inputs is never opened.

  The three frames: the kernel's two are the generated frame proofs; the reference, a host program, has its run
  read back with the result dropped. The idealization rewrote no operation, so `preserves` is trivial.
-/
import proofs.«179175_j42073499631700_1_alg».proof.Defs
import proofs.«179175_j42073499631700_1_alg».proof.Proof.Gen.Kernel
import proofs.«179175_j42073499631700_1_alg».proof.Proof.Gen.Kernel.Skeleton
import proofs.«179175_j42073499631700_1_alg».proof.Proof.Gen.Kernel.Launch
import proofs.«179175_j42073499631700_1_alg».proof.Proof.Gen.Kernel.Points
import proofs.«179175_j42073499631700_1_alg».proof.Proof.Gen.Kernel.Frame
import proofs.«179175_j42073499631700_1_alg».proof.Proof.Gen.KernelIdeal
import proofs.«179175_j42073499631700_1_alg».proof.Proof.Gen.KernelIdeal.Skeleton
import proofs.«179175_j42073499631700_1_alg».proof.Proof.Gen.KernelIdeal.Launch
import proofs.«179175_j42073499631700_1_alg».proof.Proof.Gen.KernelIdeal.Points
import proofs.«179175_j42073499631700_1_alg».proof.Proof.Gen.KernelIdeal.Frame
import proofs.«179175_j42073499631700_1_alg».proof.Proof.Gen.ReferenceIdeal
import proofs.«179175_j42073499631700_1_alg».proof.Proof.Gen.Pre_finite_inputs
import proofs.«179175_j42073499631700_1_alg».proof.Proof.ReferenceRun
import proofs.«179175_j42073499631700_1_alg».proof.Proof.ReferenceRead
import proofs.«179175_j42073499631700_1_alg».proof.Proof.SecondLayer
import proofs.«179175_j42073499631700_1_alg».proof.Proof.FirstLayerBlocks
import proofs.«179175_j42073499631700_1_alg».proof.Proof.SecondLayerBlocks
import proofs.«179175_j42073499631700_1_alg».proof.Proof.KernelRun
import proofs.«179175_j42073499631700_1_alg».proof.Proof.KernelStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference is a host program: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the exact reals both programs end at the reference's last stage of the six arguments: the kernel because
    its boundary contents are the reference's stages one after the other, the reference by its own run; the
    arguments agree, so the two values are one. -/
theorem algebraic : Cert.algebraic_KernelIdeal_ReferenceIdeal := by
  intro m ρ m' ρ' _ hagree
  refine ⟨fun c => Cert.ReferenceIdeal.Read.val_main_v97 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_eq m ρ c
          (fun V c => Cert.KernelIdeal.FirstLayer.firstLayer_final V c)
          (fun V c => Cert.KernelIdeal.SecondLayer.secondLayer_final V c)), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
